-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x256 .f32) (main_arg1 : IVec S2x800000 32) (main_arg2 : FVec F S256x64 .f32) (main_arg3 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S50000x64 : Shape := ⟨2, ![50000, 64]⟩
abbrev S5000x256 : Shape := ⟨2, ![5000, 256]⟩
abbrev S5000x64 : Shape := ⟨2, ![5000, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 66
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x64, .f32⟩
  | .hbm, ⟨3, _⟩ => ⟨S64, .f32⟩
  | .hbm, ⟨4, _⟩ => ⟨S50000x64, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x1, .f32⟩
  | .hbm, ⟨58, _⟩ => ⟨S850000x64, .f32⟩
  | .hbm, ⟨59, _⟩ => ⟨S850000x64, .f32⟩
  | .hbm, ⟨60, _⟩ => ⟨S_, .f32⟩
  | .hbm, ⟨61, _⟩ => ⟨S50000x64, .f32⟩
  | .hbm, ⟨62, _⟩ => ⟨S850000x1, .i32⟩
  | .hbm, ⟨63, _⟩ => ⟨S50000x64, .f32⟩
  | .hbm, ⟨64, _⟩ => ⟨S1x64, .f32⟩
  | .hbm, ⟨65, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  dot_S5000x256_S256x64_S5000x64_1_0_0_1_n_n_wf : DotDims.WF S5000x256 S256x64 S5000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S50000x64 : Shape := ⟨2, ![50000, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x64, .f32⟩
  | .hbm, ⟨3, _⟩ => ⟨S64, .f32⟩
  | .hbm, ⟨4, _⟩ => ⟨S50000x64, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x1, .f32⟩
  | .hbm, ⟨58, _⟩ => ⟨S850000x64, .f32⟩
  | .hbm, ⟨59, _⟩ => ⟨S850000x64, .f32⟩
  | .hbm, ⟨60, _⟩ => ⟨S_, .f32⟩
  | .hbm, ⟨61, _⟩ => ⟨S50000x64, .f32⟩
  | .hbm, ⟨62, _⟩ => ⟨S850000x1, .i32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S50000x64, .f32⟩
  | .hbm, ⟨69, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x64_S50000x64_1_0_0_1_n_n_wf : DotDims.WF S50000x256 S256x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run, with its result named.

  @main is five segments: the matrix-product region, three stretches of host operations, and the bias-and-threshold
  region. The contents of every buffer at each segment boundary are a fold from the launch memory; at the return
  the fold is `Gen.W5`. Here the run is stated with EVERY unscoped buffer of the final memory at that fold, and then
  with the result array named: it is what the second region's write-backs leave, `(dat1 (V4 m ρ) c).arrAt 2 N`, the
  arguments being as launched.
-/
import proofs.«169484_j26843545600017_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents `Gen.W5`. -/
theorem run_unscoped : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The result's buffer is the second region's output array, so at the return it holds what that region's
    write-backs leave. -/
theorem W5_result (c : Dev nD) : W5 m ρ c (Proc.devRef .tc main_v47) = (dat1 (V4 m ρ) c).arrAt 2 cfg1.N :=
  W5_arr m ρ c 2

/-- The run with the result array named and the arguments as launched. -/
theorem run_named : θ_run defs (onTc (τ := τ) (main (F := F))) ⟨m, fun _ => 0, ρ⟩ (fun r => ∀ c : Dev nD,
      r.2.mem ((c.tc : Thread nD τ).loc main_v47) = (dat1 (V4 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_v47 (by decide))).trans (W5_result m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)
    (run_unscoped m ρ)

end Cert.KernelIdeal.Whole

end
-- ==== Proof.Spec.lean ====
/-
  A graph-convolution layer as one function of its argument arrays.

  `x : [50000, 256]` are the node features, `e : [2, 800000]` the edge list (row 0 the sources, row 1 the
  destinations), `w : [256, 64]` the weights, `b : [64]` the bias. With a self loop appended for every node,
  `deg v` counts the edges into `v`, `dis v = deg v ^ (-1/2)` where `deg v > 0` and `0` elsewhere, and

      layer x e w b = max (agg (x · w) e + b, 0),    agg h e v = Σ over edges (s → v) of  h s · (dis s · dis v).

  Both programs compute `agg` by the same host operations (a gather of the rows of `h` at the sources, a scaling
  by the edge's coefficient, a scatter-add at the destinations); it is stated here once, over the operations
  themselves, so that neither side of the comparison ever opens it: the two programs differ only in how `h = x · w`
  is computed and in how the bias and the threshold are applied.
-/
import proofs.«169484_j26843545600017_1_alg».proof.ReferenceIdeal

noncomputable section

namespace Cert.Gcn

open Idealize.ShloMosaic Cert.ReferenceIdeal Cert.ReferenceIdeal.Facts₀

variable {F : FTy → Type} [FloatOps F] [Cert.ReferenceIdeal.Facts]

/-- The edges' sources: row 0 of the edge list, then the self loops `0, 1, …, 49999`. -/
def src (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edges' destinations: row 1 of the edge list, then the self loops. -/
def dst (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node number read the way an array index is: a negative one counts from the end. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The in-degree of every node: ones added up at the destinations. -/
def deg (e : (⟨S2x800000, .i32⟩ : BufTy).Contents (Elt F)) : (⟨S50000, .f32⟩ : BufTy).Contents (Elt F) :=
  Host.scatterAdd (F := F) scatter_S50000_S850000x1_S850000_n_0_0_1 (broadcastInDim S50000 ![] bcast_S_S50000 (constant S_ .f32 0x00000000#32)) (broadcastInDim S850000x1 ![0] bcast_S850000_S850000x1_0 (dst (F := F) e)) (broadcastInDim S850000 ![] bcast_S_S850000 (constant S_ .f32 0x3F800000#32))

/-- `deg ^ (-1/2)` where the degree is positive (the degree kept away from zero under the root), zero elsewhere. -/
def degInvSqrt (e : (⟨S2x800000, .i32⟩ : BufTy).Contents (Elt F)) : (⟨S50000, .f32⟩ : BufTy).Contents (Elt F) :=
  select (cmpf (F := F) .ogt (deg (F := F) e) (broadcastInDim S50000 ![] bcast_S_S50000 (constant S_ .f32 0x00000000#32))) (Host.rsqrt (maximumf (deg (F := F) e) (broadcastInDim S50000 ![] bcast_S_S50000 (constant S_ .f32 0x2B8CBCCC#32)))) (broadcastInDim S50000 ![] bcast_S_S50000 (id (constant S_ .f32 0x00000000#32)))

/-- The coefficient of every edge: `dis` at its source times `dis` at its destination. -/
def coeff (e : (⟨S2x800000, .i32⟩ : BufTy).Contents (Elt F)) : (⟨S850000, .f32⟩ : BufTy).Contents (Elt F) :=
  mulf (Host.gather gather_S50000_S850000x1_S850000_n_0_n_n_0_1_1 (degInvSqrt (F := F) e) (broadcastInDim S850000x1 ![0] bcast_S850000_S850000x1_0 (wrap (F := F) (src (F := F) e)))) (Host.gather gather_S50000_S850000x1_S850000_n_0_n_n_0_1_1 (degInvSqrt (F := F) e) (broadcastInDim S850000x1 ![0] bcast_S850000_S850000x1_0 (wrap (F := F) (dst (F := F) e))))

/-- THE AGGREGATION: row `v` of the result is the sum, over the edges into `v`, of the source's row of `h`
    times the edge's coefficient. -/
def agg (h : (⟨S50000x64, .f32⟩ : BufTy).Contents (Elt F)) (e : (⟨S2x800000, .i32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 (dst (F := F) e)) (mulf (Host.gather gather_S50000x64_S850000x1_S850000x64_1_0_n_n_0_1_164 h (broadcastInDim S850000x1 ![0] bcast_S850000_S850000x1_0 (wrap (F := F) (src (F := F) e)))) (broadcastInDim S850000x64 ![0, 1] bcast_S850000x1_S850000x64_0_1 (broadcastInDim S850000x1 ![0] bcast_S850000_S850000x1_0 (coeff (F := F) e))))

/-- The linear transform `x · w`. -/
def linear (x : (⟨S50000x256, .f32⟩ : BufTy).Contents (Elt F)) (w : (⟨S256x64, .f32⟩ : BufTy).Contents (Elt F)) : (⟨S50000x64, .f32⟩ : BufTy).Contents (Elt F) :=
  Host.dotGeneral dot_S50000x256_S256x64_S50000x64_1_0_0_1_n_n none x w

/-- The bias added to every row, then the threshold at zero. -/
def biasRelu (a : (⟨S50000x64, .f32⟩ : BufTy).Contents (Elt F)) (b : (⟨S64, .f32⟩ : BufTy).Contents (Elt F)) : (⟨S50000x64, .f32⟩ : BufTy).Contents (Elt F) :=
  maximumf (addf a (broadcastInDim S50000x64 ![0, 1] bcast_S1x64_S50000x64_0_1 (broadcastInDim S1x64 ![1] bcast_S64_S1x64_1 b))) (broadcastInDim S50000x64 ![] bcast_S_S50000x64 (constant S_ .f32 0x00000000#32))

/-- THE LAYER. -/
def layer (x : (⟨S50000x256, .f32⟩ : BufTy).Contents (Elt F)) (e : (⟨S2x800000, .i32⟩ : BufTy).Contents (Elt F))
    (w : (⟨S256x64, .f32⟩ : BufTy).Contents (Elt F)) (b : (⟨S64, .f32⟩ : BufTy).Contents (Elt F)) : (⟨S50000x64, .f32⟩ : BufTy).Contents (Elt F) :=
  biasRelu (agg (linear x w) e) b

end Cert.Gcn

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«169484_j26843545600017_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.Linear.lean ====
/-
  The first region leaves the matrix product.

  The region walks the 10 row blocks of 5000 rows: at point `t` it loads rows `5000 t … 5000 t + 4999` of the
  features and the whole weight matrix, narrows both (the identity on the extended reals), multiplies them into a
  zero accumulator and writes the 5000 × 64 product back as block `t` of the output. Entry `(r, q)` of a block's
  product is `Σ k, x (5000 t + r, k) · w (k, q)`, which is entry `(5000 t + r, q)` of the whole product: the
  blocks tile the output, so the output array ends as the host's product of the two arrays the region finds.
-/
import proofs.«169484_j26843545600017_1_alg».proof.Proof.Gen.KernelIdeal.Frame
import proofs.«169484_j26843545600017_1_alg».proof.Proof.Gen.ReferenceIdeal
import proofs.«169484_j26843545600017_1_alg».proof.Proof.Spec
import proofs.«169484_j26843545600017_1_alg».proof.Proof.LibPlainDot
import proofs.«169484_j26843545600017_1_alg».proof.Proof.LibHostDot
import Idealize.ShloMosaic.Lib.Pipeline.Value
import Idealize.ShloMosaic.Lib.ValueIdx

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- One entry of a block's product: if row `r` of the loaded feature block is row `R` of the feature array and
    the loaded weights are the weight array, entry `(r, q)` of the block's product is entry `(R, q)` of the whole
    product. -/
theorem block_entry (x0 : Vec Ideal S5000x256 .f32) (x1 : Vec Ideal S256x64 .f32)
    (A : (⟨Cert.ReferenceIdeal.S50000x256, .f32⟩ : BufTy).Contents (Elt Ideal))
    (B : (⟨Cert.ReferenceIdeal.S256x64, .f32⟩ : BufTy).Contents (Elt Ideal))
    (r : Fin 5000) (q : Fin 64) (R : Fin 50000)
    (h0 : ∀ k : Fin 256, x0 (ix2 r k) = A (ix2 R k)) (h1 : ∀ k : Fin 256, x1 (ix2 k q) = B (ix2 k q)) :
    k0_pay1 x0 x1 (ix2 r q) = Cert.Gcn.linear (F := Ideal) A B (ix2 R q) := by
  unfold k0_pay1 Cert.Gcn.linear
  refine (Cert.LibPlainDot.matmul_zero_apply (R := 5000) (K := 256) (C := 64)
    Cert.KernelIdeal.Facts₀.dot_S5000x256_S256x64_S5000x64_1_0_0_1_n_n_wf none _ _ r q).trans ?_
  refine Eq.trans ?_ (Cert.LibHostDot.hostDot_apply (R := 50000) (K := 256) (C := 64)
    Cert.ReferenceIdeal.Facts₀.dot_S50000x256_S256x64_S50000x64_1_0_0_1_n_n_wf none A B R q).symm
  exact Finset.sum_congr rfl fun k _ => by rw [truncf_apply, truncf_apply, h0 k, h1 k]

/-- The same at any two indices with those coordinates. -/
theorem block_entry_at (x0 : Vec Ideal S5000x256 .f32) (x1 : Vec Ideal S256x64 .f32)
    (A : (⟨Cert.ReferenceIdeal.S50000x256, .f32⟩ : BufTy).Contents (Elt Ideal))
    (B : (⟨Cert.ReferenceIdeal.S256x64, .f32⟩ : BufTy).Contents (Elt Ideal))
    (j : S5000x64.Idx) (i : S50000x64.Idx) (r : Fin 5000) (q : Fin 64) (R : Fin 50000)
    (hj0 : (j 0).val = r.val) (hj1 : (j 1).val = q.val) (hi0 : (i 0).val = R.val) (hi1 : (i 1).val = q.val)
    (h0 : ∀ k : Fin 256, x0 (ix2 r k) = A (ix2 R k)) (h1 : ∀ k : Fin 256, x1 (ix2 k q) = B (ix2 k q)) :
    k0_pay1 x0 x1 j = Cert.Gcn.linear (F := Ideal) A B i := by
  have ej : j = ix2 r q := funext fun a => Fin.ext (by
    match a with
    | ⟨0, _⟩ => exact hj0
    | ⟨1, _⟩ => exact hj1)
  have ei : i = ix2 R q := funext fun a => Fin.ext (by
    match a with
    | ⟨0, _⟩ => exact hi0
    | ⟨1, _⟩ => exact hi1)
  rw [ej, ei]
  exact block_entry x0 x1 A B r q R h0 h1

variable (V : (c : Dev nD) → (b : Ref sig .tc) → Buf (Elt Ideal) ((c : Thread nD τ).loc b))

/-- The printed index maps over the grid: the feature and output windows sit at row block `t`, column block 0;
    the weight window always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `5000 t …` of the feature array. -/
theorem features_block (c : Dev nD) (t : Fin cfg0.N) (y : S5000x256.Idx) (i : S50000x256.Idx)
    (h0 : (i 0).val = t.val * 5000 + (y 0).val) (h1 : (i 1).val = (y 1).val) :
    (iblk0 V c 0 t : Vec Ideal S5000x256 .f32) y = (V c main_arg0 : S50000x256.Idx → Elt Ideal .f32) i := by
  obtain ⟨e0, e1, -, -, -, -⟩ := idx_facts t
  unfold iblk0
  rw [View.read_apply]
  show (V c main_arg0 : S50000x256.Idx → Elt Ideal .f32) (((cfg0.win 0).blk t).view.emb y) = _
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 256 + 1 * (y 1).val = (i 1).val; rw [e1, h1]; omega

/-- The weight window's block at every point is the weight array. -/
theorem weights_block (c : Dev nD) (t : Fin cfg0.N) (y : S256x64.Idx) :
    (iblk0 V c 1 t : Vec Ideal S256x64 .f32) y = (V c main_arg2 : S256x64.Idx → Elt Ideal .f32) y := by
  obtain ⟨-, -, e2, e3, -, -⟩ := idx_facts t
  unfold iblk0
  rw [View.read_apply]
  show (V c main_arg2 : S256x64.Idx → Elt Ideal .f32) (((cfg0.win 1).blk t).view.emb y) = _
  refine congrArg _ (funext fun a => Fin.ext ?_)
  match a with
  | ⟨0, _⟩ => show win0_1.index t (0 : Fin 2) * 256 + 1 * (y 0).val = (y 0).val; rw [e2]; omega
  | ⟨1, _⟩ => show win0_1.index t (1 : Fin 2) * 64 + 1 * (y 1).val = (y 1).val; rw [e3]; omega

/-- WHAT POINT `t` WRITES BACK is block `t` of the product of the feature and weight arrays. -/
theorem flushed_eq (c : Dev nD) (t : Fin cfg0.N) :
    (dat0 V c).flushed 2 t = ((cfg0.win 2).blk t).view.read (Elt Ideal)
      (Cert.Gcn.linear (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x64) hz]
  obtain ⟨-, -, -, -, e4, e5⟩ := idx_facts t
  have hN : cfg0.N = 10 := N_0
  have ht : t.val < 10 := hN ▸ t.isLt
  funext j
  have hj0 : (j 0).val < 5000 := (j 0).isLt
  have hj1 : (j 1).val < 64 := (j 1).isLt
  show k0_pay1 (iblk0 V c 0 t) (iblk0 V c 1 t) j
    = Cert.Gcn.linear (F := Ideal) (V c main_arg0) (V c main_arg2) (((cfg0.win 2).blk t).view.emb j)
  refine block_entry_at (iblk0 V c 0 t) (iblk0 V c 1 t) (V c main_arg0) (V c main_arg2) j _
    (⟨(j 0).val, hj0⟩ : Fin 5000) (⟨(j 1).val, hj1⟩ : Fin 64) (⟨t.val * 5000 + (j 0).val, by omega⟩ : Fin 50000)
    rfl rfl ?_ ?_ (fun k => features_block V c t _ _ rfl rfl) (fun k => weights_block V c t _)
  · show win0_2.index t (0 : Fin 2) * 5000 + 1 * (j 0).val = t.val * 5000 + (j 0).val
    rw [e4]; omega
  · show win0_2.index t (1 : Fin 2) * 64 + 1 * (j 1).val = (j 1).val
    rw [e5]; omega

/-- An index of the output is in point `t`'s block iff each coordinate is in the block's range on its axis. -/
theorem mem_blk (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- Every row of the output lies in the block of the point `row / 5000`. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  have hlt : (i 0).val / 5000 < cfg0.N := by rw [hN]; omega
  obtain ⟨-, -, -, -, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 64 ≤ (i 1).val
      ∧ (i 1).val < win0_2.index ⟨(i 0).val / 5000, hlt⟩ (1 : Fin 2) * 64 + 64
    rw [e5]; omega

/-- THE OUTPUT ARRAY after the region: the product of the feature and weight arrays the region finds. -/
theorem final (c : Dev nD) :
    (dat0 V c).arrAt 2 cfg0.N = Cert.Gcn.linear (F := Ideal) (V c main_arg0) (V c main_arg2) :=
  (dat0 V c).arrAt_eq_of_cover 2 _ (fun t _ => flushed_eq V c t) cover

end Cert.KernelIdeal.Linear

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.BiasRelu.lean ====
/-
  The second region leaves the bias added and the threshold applied.

  The region walks the same 10 row blocks: at point `t` it loads rows `5000 t …` of the aggregated array and the
  bias row `[1, 64]`, stretches the bias over the 5000 rows, adds, takes the maximum with zero and writes the block
  back. Entry `(r, q)` of the block's result is `max (a (5000 t + r, q) + b q, 0)`, entry `(5000 t + r, q)` of
  the host's `max (a + b, 0)` over the whole array (the bias row being the bias vector with a unit axis in front), and the
  blocks tile the output.
-/
import proofs.«169484_j26843545600017_1_alg».proof.Proof.Gen.KernelIdeal.Frame
import proofs.«169484_j26843545600017_1_alg».proof.Proof.Gen.ReferenceIdeal
import proofs.«169484_j26843545600017_1_alg».proof.Proof.Spec
import proofs.«169484_j26843545600017_1_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.BiasRelu

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- One entry of the body's result: if entry `(r, q)` of the loaded block is entry `(R, q)` of the aggregated array
    and entry `q` of the loaded bias row is entry `q` of the bias vector, the stored entry `(r, q)` is entry
    `(R, q)` of the host's bias-and-threshold over the whole array. -/
theorem block_entry (x1 : Vec Ideal S1x64 .f32) (x0 : Vec Ideal S5000x64 .f32)
    (A : (⟨Cert.ReferenceIdeal.S50000x64, .f32⟩ : BufTy).Contents (Elt Ideal))
    (b : (⟨Cert.ReferenceIdeal.S64, .f32⟩ : BufTy).Contents (Elt Ideal))
    (r : Fin 5000) (q : Fin 64) (R : Fin 50000)
    (h0 : x0 (ix2 r q) = A (ix2 R q)) (h1 : x1 (ix2 (0 : Fin 1) q) = b (ix1 q)) :
    k1_pay1 x1 x0 (ix2 r q) = Cert.Gcn.biasRelu (F := Ideal) A b (ix2 R q) := by
  unfold k1_pay1 Cert.Gcn.biasRelu
  simp only [shapeCast_self]
  rw [maximumf_apply, maximumf_apply, addf_apply, addf_apply, broadcast_apply, broadcastTo_1b_ab_apply, h0, h1,
    Cert.LibColumn.bcastInDim_scalar_apply _ _ _ ix0, constant_apply,
    Cert.LibColumn.bcastInDim_1b_ab_apply, Cert.LibColumn.bcastInDim_b_1b_apply]
  rfl

/-- The same at any two indices with those coordinates. -/
theorem block_entry_at (x1 : Vec Ideal S1x64 .f32) (x0 : Vec Ideal S5000x64 .f32)
    (A : (⟨Cert.ReferenceIdeal.S50000x64, .f32⟩ : BufTy).Contents (Elt Ideal))
    (b : (⟨Cert.ReferenceIdeal.S64, .f32⟩ : BufTy).Contents (Elt Ideal))
    (j : S5000x64.Idx) (i : S50000x64.Idx) (r : Fin 5000) (q : Fin 64) (R : Fin 50000)
    (hj0 : (j 0).val = r.val) (hj1 : (j 1).val = q.val) (hi0 : (i 0).val = R.val) (hi1 : (i 1).val = q.val)
    (h0 : x0 (ix2 r q) = A (ix2 R q)) (h1 : x1 (ix2 (0 : Fin 1) q) = b (ix1 q)) :
    k1_pay1 x1 x0 j = Cert.Gcn.biasRelu (F := Ideal) A b i := by
  have ej : j = ix2 r q := funext fun a => Fin.ext (by
    match a with
    | ⟨0, _⟩ => exact hj0
    | ⟨1, _⟩ => exact hj1)
  have ei : i = ix2 R q := funext fun a => Fin.ext (by
    match a with
    | ⟨0, _⟩ => exact hi0
    | ⟨1, _⟩ => exact hi1)
  rw [ej, ei]
  exact block_entry x1 x0 A b r q R h0 h1

variable (V : (c : Dev nD) → (b : Ref sig .tc) → Buf (Elt Ideal) ((c : Thread nD τ).loc b))

/-- The printed index maps over the grid: the aggregated array's and the output's windows sit at row block `t`,
    column block 0; the bias window always at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first window's block at point `t` is rows `5000 t …` of the aggregated array. -/
theorem rows_block (c : Dev nD) (t : Fin cfg1.N) (y : S5000x64.Idx) (i : S50000x64.Idx)
    (h0 : (i 0).val = t.val * 5000 + (y 0).val) (h1 : (i 1).val = (y 1).val) :
    (iblk1 V c 0 t : Vec Ideal S5000x64 .f32) y = (V c main_v45 : S50000x64.Idx → Elt Ideal .f32) i := by
  obtain ⟨e0, e1, -, -, -, -⟩ := idx_facts t
  unfold iblk1
  rw [View.read_apply]
  show (V c main_v45 : S50000x64.Idx → Elt Ideal .f32) (((cfg1.win 0).blk t).view.emb y) = _
  refine congrArg _ (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 64 + 1 * (y 1).val = (i 1).val; rw [e1, h1]; omega

/-- The bias window's block at every point is the bias row. -/
theorem bias_block (c : Dev nD) (t : Fin cfg1.N) (y : S1x64.Idx) :
    (iblk1 V c 1 t : Vec Ideal S1x64 .f32) y = (V c main_v46 : S1x64.Idx → Elt Ideal .f32) y := by
  obtain ⟨-, -, e2, e3, -, -⟩ := idx_facts t
  unfold iblk1
  rw [View.read_apply]
  show (V c main_v46 : S1x64.Idx → Elt Ideal .f32) (((cfg1.win 1).blk t).view.emb y) = _
  refine congrArg _ (funext fun a => Fin.ext ?_)
  match a with
  | ⟨0, _⟩ => show win1_1.index t (0 : Fin 2) * 1 + 1 * (y 0).val = (y 0).val; rw [e2]; omega
  | ⟨1, _⟩ => show win1_1.index t (1 : Fin 2) * 64 + 1 * (y 1).val = (y 1).val; rw [e3]; omega

variable (b : (⟨Cert.ReferenceIdeal.S64, .f32⟩ : BufTy).Contents (Elt Ideal))

/-- WHAT POINT `t` WRITES BACK is block `t` of the bias-and-threshold of the aggregated array, when the bias row
    the region finds is the bias vector `b` with a unit axis in front. -/
theorem flushed_eq (c : Dev nD)
    (hb : (V c main_v46 : S1x64.Idx → Elt Ideal .f32) = shapeCast S1x64 b Cert.KernelIdeal.Facts₀.shapeCasts_S64_S1x64)
    (t : Fin cfg1.N) :
    (dat1 V c).flushed 2 t = ((cfg1.win 2).blk t).view.read (Elt Ideal)
      (Cert.Gcn.biasRelu (F := Ideal) (V c main_v45) b) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨-, -, -, -, e4, e5⟩ := idx_facts t
  have hN : cfg1.N = 10 := N_1
  have ht : t.val < 10 := hN ▸ t.isLt
  funext j
  have hj0 : (j 0).val < 5000 := (j 0).isLt
  have hj1 : (j 1).val < 64 := (j 1).isLt
  show k1_pay1 (iblk1 V c 1 t) (iblk1 V c 0 t) j
    = Cert.Gcn.biasRelu (F := Ideal) (V c main_v45) b (((cfg1.win 2).blk t).view.emb j)
  refine block_entry_at (iblk1 V c 1 t) (iblk1 V c 0 t) (V c main_v45) b j _
    (⟨(j 0).val, hj0⟩ : Fin 5000) (⟨(j 1).val, hj1⟩ : Fin 64) (⟨t.val * 5000 + (j 0).val, by omega⟩ : Fin 50000)
    rfl rfl ?_ ?_ (rows_block V c t _ _ rfl rfl) ((bias_block V c t _).trans ?_)
  · show win1_2.index t (0 : Fin 2) * 5000 + 1 * (j 0).val = t.val * 5000 + (j 0).val
    rw [e4]; omega
  · show win1_2.index t (1 : Fin 2) * 64 + 1 * (j 1).val = (j 1).val
    rw [e5]; omega
  · rw [hb]
    exact shapeCast_a_1a_apply b _ _ _

/-- An index of the output is in point `t`'s block iff each coordinate is in the block's range on its axis. -/
theorem mem_blk (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v47).slice (win1_2.rect t)).set ↔ _
  rw [View.set_slice_whole, Rect.mem_set_unit]
  exact Iff.rfl

/-- Every row of the output lies in the block of the point `row / 5000`. -/
theorem cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  have hlt : (i 0).val / 5000 < cfg1.N := by rw [hN]; omega
  obtain ⟨-, -, -, -, e4, e5⟩ := idx_facts ⟨(i 0).val / 5000, hlt⟩
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 64 ≤ (i 1).val
      ∧ (i 1).val < win1_2.index ⟨(i 0).val / 5000, hlt⟩ (1 : Fin 2) * 64 + 64
    rw [e5]; omega

/-- THE OUTPUT ARRAY after the region: the bias-and-threshold of the aggregated array the region finds. -/
theorem final (c : Dev nD)
    (hb : (V c main_v46 : S1x64.Idx → Elt Ideal .f32) = shapeCast S1x64 b Cert.KernelIdeal.Facts₀.shapeCasts_S64_S1x64) :
    (dat1 V c).arrAt 2 cfg1.N = Cert.Gcn.biasRelu (F := Ideal) (V c main_v45) b :=
  (dat1 V c).arrAt_eq_of_cover 2 _ (fun t _ => flushed_eq V b c hb t) cover

end Cert.KernelIdeal.BiasRelu

end
-- ==== Proof.Between.lean ====
/-
  Between the two regions.

  The host operations between the regions compute, from the first region's output `h` and the edge list, the
  aggregated array, and give the bias vector a unit axis in front. Read back through the three stretches of host
  operations, the aggregated array the second region finds is `Gcn.agg` of the first region's output and the edge
  list as launched, operation for operation; no operation of `agg` is opened.
-/
import proofs.«169484_j26843545600017_1_alg».proof.Proof.Gen.KernelIdeal.Frame
import proofs.«169484_j26843545600017_1_alg».proof.Proof.Gen.ReferenceIdeal
import proofs.«169484_j26843545600017_1_alg».proof.Proof.Spec
import Idealize.ShloMosaic.Lib.StableHlo.Run

set_option maxRecDepth 16384

noncomputable section

namespace Cert.KernelIdeal.Between

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The first region leaves the edge list as launched. -/
theorem edges_kept (c : Dev nD) : W1 m ρ c (Proc.devRef .tc main_arg1) = m ((c.tc : Thread nD τ).loc main_arg1) :=
  (W1_of_ne m ρ c main_arg1 (by decide)).trans rfl

/-- The first region leaves the bias vector as launched. -/
theorem bias_kept (c : Dev nD) : W1 m ρ c (Proc.devRef .tc main_arg3) = m ((c.tc : Thread nD τ).loc main_arg3) :=
  (W1_of_ne m ρ c main_arg3 (by decide)).trans rfl

set_option maxHeartbeats 4000000 in
/-- The aggregated array the second region finds: the aggregation, over the edges as launched, of the first
    region's output. -/
theorem found_agg (c : Dev nD) :
    W4 m ρ c (Proc.devRef .tc main_v45)
      = Cert.Gcn.agg (F := F) (W1 m ρ c (Proc.devRef .tc main_v0)) (m ((c.tc : Thread nD τ).loc main_arg1)) := by
  show after hostOps1_2 (after hostOps1_1 (after hostOps1 (W1 m ρ c))) (Proc.devRef .tc main_v45) = _
  rw [← edges_kept m ρ c]
  generalize W1 m ρ c = W
  after_results_simp
  first | rfl | fail "the host stretch's term is not the aggregation"

set_option maxHeartbeats 4000000 in
/-- The bias row the second region finds: the bias vector as launched with a unit axis in front. -/
theorem found_bias (c : Dev nD) :
    W4 m ρ c (Proc.devRef .tc main_v46)
      = shapeCast S1x64 (m ((c.tc : Thread nD τ).loc main_arg3) : S64.Idx → Elt F .f32) Cert.KernelIdeal.Facts₀.shapeCasts_S64_S1x64 := by
  show after hostOps1_2 (after hostOps1_1 (after hostOps1 (W1 m ρ c))) (Proc.devRef .tc main_v46) = _
  rw [← bias_kept m ρ c]
  generalize W1 m ρ c = W
  after_results_simp
  first | rfl | fail "the host stretch's term is not the cast of the bias"

end Cert.KernelIdeal.Between

end
-- ==== Proof.RefLayer.lean ====
/-
  The reference computes the layer.

  The reference program's run ends with its result at the composed term of its host operations; that term is,
  operation for operation, `Gcn.layer` of the four argument arrays: the host's matrix product, the aggregation over
  the edges, the bias added to every row and the threshold at zero.
-/
import proofs.«169484_j26843545600017_1_alg».proof.Proof.RefRun
import proofs.«169484_j26843545600017_1_alg».proof.Proof.Spec

noncomputable section

namespace Cert.ReferenceIdeal.IsLayer

open Cert.ReferenceIdeal Cert.ReferenceIdeal.Gen Idealize.ShloMosaic Idealize.ShloMosaic.TcCoe Idealize.SL.Sem

variable {F : FTy → Type} [FloatOps F]

set_option maxRecDepth 8192 in
/-- The run's result term is the layer of the arguments as launched. -/
theorem res_eq_layer (m : (ℓ : Loc nD τ sig) → Buf (Elt F) ℓ) (c : Dev nD) :
    Cert.ReferenceIdeal.ValueP.res_main_v49 m c
      = Cert.Gcn.layer (F := F) (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v49 Cert.Gcn.layer Cert.Gcn.biasRelu Cert.Gcn.agg Cert.Gcn.linear
    Cert.Gcn.coeff Cert.Gcn.degInvSqrt Cert.Gcn.deg Cert.Gcn.wrap Cert.Gcn.src Cert.Gcn.dst
  first | rfl | fail "the two terms differ"

/-- The reference's run, its result stated as the layer. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49)
          = Cert.Gcn.layer (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res_eq_layer m c), (h c).2⟩)
    (Cert.ReferenceIdeal.ValueP.run (F := F) m ρ)

end Cert.ReferenceIdeal.IsLayer

end
-- ==== Proof.lean ====
/-
  A graph-convolution layer computed by two kernels and the host, against the plain formula.

  The program under proof computes `relu (agg (x · w) + b)` in three steps: a kernel multiplies the feature matrix
  by the weights, 5000 rows at a time, the operands narrowed to bf16 before the product; the host gathers, scales and
  scatter-adds the rows of that product along the edges (`agg`); a second kernel adds the bias to every row and takes
  the maximum with zero, again 5000 rows at a time. The reference computes the same formula with the host's matrix
  product, the same host aggregation, and the host's addition and maximum.

  On the extended reals a change of float format is the identity and a matrix product into a zero accumulator is the
  sum `Σ k, x (r, k) · w (k, q)`, whether it is taken block by block or over the whole array; so the first kernel
  leaves the host's product (`Linear.final`). The aggregation is the same operations on both sides and is never
  opened (`Between.found_agg`, `IsLayer.res_eq_layer`). Entry by entry the second kernel's
  `max (a (r, q) + b q, 0)` is the host's (`BiasRelu.final`). No law of arithmetic beyond these identities is used,
  so the finiteness of the inputs is never called on.

  The three frames: the two kernel programs' are generated; the reference has no kernel, and its frame is its run
  with the result dropped. The idealized kernel is the kernel's own text read on the extended reals (nothing was
  rewritten), so there is nothing to preserve beyond that.
-/
import proofs.«169484_j26843545600017_1_alg».proof.Defs
import proofs.«169484_j26843545600017_1_alg».proof.Proof.Gen.Kernel
import proofs.«169484_j26843545600017_1_alg».proof.Proof.Gen.Kernel.Frame
import proofs.«169484_j26843545600017_1_alg».proof.Proof.Gen.KernelIdeal
import proofs.«169484_j26843545600017_1_alg».proof.Proof.Gen.KernelIdeal.Frame
import proofs.«169484_j26843545600017_1_alg».proof.Proof.Gen.ReferenceIdeal
import proofs.«169484_j26843545600017_1_alg».proof.Proof.Gen.Pre_finite_inputs
import proofs.«169484_j26843545600017_1_alg».proof.Proof.KernelRun
import proofs.«169484_j26843545600017_1_alg».proof.Proof.Linear
import proofs.«169484_j26843545600017_1_alg».proof.Proof.BiasRelu
import proofs.«169484_j26843545600017_1_alg».proof.Proof.Between
import proofs.«169484_j26843545600017_1_alg».proof.Proof.RefRun
import proofs.«169484_j26843545600017_1_alg».proof.Proof.RefLayer
import Idealize.ShloMosaic.Adequacy
import Idealize.ShloMosaic.Init

noncomputable section

namespace Cert.Proof

open Idealize.ShloMosaic Idealize.ShloMosaic.TcCoe Idealize.SL.Sem

/-- What the second region's write-backs leave in the result array is the layer of the arguments as launched:
    the bias-and-threshold of what the region finds, which is the aggregation of the first region's output, which
    is the product of the features and the weights. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.dat1 (Cert.KernelIdeal.Gen.V4 m ρ) c).arrAt 2 Cert.KernelIdeal.cfg1.N
      = Cert.Gcn.layer (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  rw [Cert.KernelIdeal.BiasRelu.final (Cert.KernelIdeal.Gen.V4 m ρ)
    (m ((c.tc : Thread Cert.KernelIdeal.nD Cert.KernelIdeal.τ).loc Cert.KernelIdeal.main_arg3)) c
    (Cert.KernelIdeal.Between.found_bias m ρ c)]
  unfold Cert.Gcn.layer
  refine congrArg (fun a => Cert.Gcn.biasRelu (F := Ideal) a _) ?_
  refine (Cert.KernelIdeal.Between.found_agg m ρ c).trans ?_
  refine congrArg (fun h => Cert.Gcn.agg (F := Ideal) h _) ?_
  refine (Cert.KernelIdeal.Gen.W1_arr m ρ c 2).trans ?_
  exact Cert.KernelIdeal.Linear.final (Cert.KernelIdeal.Gen.V0 m ρ) c

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- On the extended reals both programs end with the layer of the arguments in their result arrays. -/
theorem algebraic : Cert.algebraic_KernelIdeal_ReferenceIdeal := by
  intro m ρ m' ρ' _ hagree
  refine ⟨fun c => Cert.Gcn.layer (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (kernel_value m ρ c), (h c).2⟩)
      (Cert.KernelIdeal.Whole.run_named (F := Ideal) m ρ)
  · refine (θ_run Cert.ReferenceIdeal.defs _ _).mono (fun r h c => ⟨(h c).1.trans ?_, (h c).2⟩)
      (Cert.ReferenceIdeal.IsLayer.run (F := Ideal) m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
